-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096 : Shape := ⟨2, ![4, 4096]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x4096x256 .f32) (main_arg1 : FVec F S4x4096x256 .f32) (main_arg2 : IVec S4x4096 32) (main_arg3 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4x4096x256 : Shape := ⟨3, ![4, 4096, 256]⟩
abbrev S4x4096 : Shape := ⟨2, ![4, 4096]⟩
abbrev S256x256 : Shape := ⟨2, ![256, 256]⟩
abbrev S4x1x4096 : Shape := ⟨3, ![4, 1, 4096]⟩
abbrev S4x4096x4096 : Shape := ⟨3, ![4, 4096, 4096]⟩
abbrev S1x512x256 : Shape := ⟨3, ![1, 512, 256]⟩
abbrev S1x4096x256 : Shape := ⟨3, ![1, 4096, 256]⟩
abbrev S1x1x4096 : Shape := ⟨3, ![1, 1, 4096]⟩
abbrev S1x512x4096 : Shape := ⟨3, ![1, 512, 4096]⟩
abbrev S4096x256 : Shape := ⟨2, ![4096, 256]⟩
abbrev S256x4096 : Shape := ⟨2, ![256, 4096]⟩
abbrev S512x256 : Shape := ⟨2, ![512, 256]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096, .i32⟩
  | .hbm, ⟨3, _⟩ => ⟨S256x256, .f32⟩
  | .hbm, ⟨4, _⟩ => ⟨S4x1x4096, .i32⟩
  | .hbm, ⟨5, _⟩ => ⟨S4x4096x256, .f32⟩
  | .hbm, ⟨6, _⟩ => ⟨S4x4096x4096, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .f32⟩
  | .local _ .vmem, ⟨3, _⟩ => ⟨S1x4096x256, .f32⟩
  | .local _ .vmem, ⟨4, _⟩ => ⟨S1x1x4096, .i32⟩
  | .local _ .vmem, ⟨5, _⟩ => ⟨S1x1x4096, .i32⟩
  | .local _ .vmem, ⟨6, _⟩ => ⟨S256x256, .f32⟩
  | .local _ .vmem, ⟨7, _⟩ => ⟨S1x512x256, .f32⟩
  | .local _ .vmem, ⟨8, _⟩ => ⟨S1x512x256, .f32⟩
  | .local _ .vmem, ⟨9, _⟩ => ⟨S1x512x4096, .f32⟩
  | .local _ .vmem, ⟨10, _⟩ => ⟨S1x512x4096, .f32⟩
  | .local _ .vmem, ⟨11, _⟩ => ⟨S4096x256, .bf16⟩
  | .local _ .vmem, ⟨12, _⟩ => ⟨S256x4096, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4x4096_S4x1x4096_0_2 : S4x4096.BroadcastsInDim S4x1x4096 (![0, 2] : Fin 2 → Fin S4x1x4096.rank)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S256x256_S256x256_0_0 : ∀ a, (![0, 0] : Fin 2 → Nat) a + S256x256.size a ≤ S256x256.size a
  h_S256x256 : 0 < S256x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  shapeCasts_S512x256_S1x512x256 : S512x256.ShapeCasts S1x512x256
  dot_S256x256_S4096x256_S256x4096_1_1_0_0_n_n_wf : DotDims.WF S256x256 S4096x256 S256x4096 [1] [1] [0] [0] [] []
  dot_S512x256_S256x4096_S512x4096_1_0_0_1_n_n_wf : DotDims.WF S512x256 S256x4096 S512x4096 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .f32 = 32 ∨ (Rect.block (s := S4x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .i32 = 32 ∨ (Rect.block (s := S4x1x4096) S1x1x4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S4x4096x256.size a
  hwx0_4 : ∀ i : grid0.Coords, EltTy.bits .f32 = 32 ∨ (Rect.block (s := S4x4096x256) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S4x4096x4096.size a
  hwx0_5 : ∀ i : grid0.Coords, EltTy.bits .f32 = 32 ∨ (Rect.block (s := S4x4096x4096) S1x512x4096.size (cc0_transform_5 i) (hinb0_5 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096 : Shape := ⟨2, ![4, 4096]⟩
abbrev S256x256 : Shape := ⟨2, ![256, 256]⟩
abbrev S4x4096x4096 : Shape := ⟨3, ![4, 4096, 4096]⟩
abbrev S4x1x4096 : Shape := ⟨3, ![4, 1, 4096]⟩
abbrev S_ : Shape := ⟨0, ![]⟩
abbrev S4x4096x1 : Shape := ⟨3, ![4, 4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096, .i32⟩
  | .hbm, ⟨3, _⟩ => ⟨S256x256, .f32⟩
  | .hbm, ⟨4, _⟩ => ⟨S4x4096x256, .f32⟩
  | .hbm, ⟨5, _⟩ => ⟨S4x4096x4096, .f32⟩
  | .hbm, ⟨6, _⟩ => ⟨S4x4096, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x1x4096, .f32⟩
  | .hbm, ⟨12, _⟩ => ⟨S4x1x4096, .f32⟩
  | .hbm, ⟨13, _⟩ => ⟨S_, .f32⟩
  | .hbm, ⟨14, _⟩ => ⟨S4x1x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S_S4x1x4096 : S_.BroadcastsInDim S4x1x4096 (![] : Fin 0 → Fin S4x1x4096.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.AttnSpec.lean ====
/-
  Masked soft attention with a "general" (bilinear) score, as functions of the four argument arrays over the
  extended reals.  With target states x0 = h_t [4, 4096, 256], source states x1 = h_s [4, 4096, 256], mask words
  x2 = m_s [4, 4096] and the input projection x3 = W [256, 256]:

    energy b s k   = ∑ d, h_s[b, s, d] · W[k, d]                        (the source states projected)
    score  b t s   = ∑ k, h_t[b, t, k] · energy b s k
    masked entry   = max (score · m − P · (1 − m)) floor,   m the mask word read as a number,
                     P = 99999997952 and floor = −10¹⁰ the two float words both programs carry
    probs  b t ·   = the softmax of the masked row: exp (v − max v) / ∑ exp (v − max v), the maximum taken from −∞
    context b t d  = ∑ s, probs b t s · h_s[b, s, d]

  The float words stay words (`Ideal.ofBits`): the same word stands on both sides and is never evaluated.  A row's
  maximum is the fold of `max` from the word of −∞, the form both a lane reduction and a host reduce take.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- A mask word read as a number (a signed integer, exactly). -/
def maskVal (w : BitVec 32) : EReal := FloatOps.sitofp (F := Ideal) .f32 w

/-- One score after masking and clamping: `max (x · m − P · (1 − m)) floor`. -/
def maskedEntry (x : EReal) (w : BitVec 32) : EReal :=
  max (x * maskVal w - Ideal.ofBits .f32 0x51BA43B7#32 * (Ideal.ofBits .f32 0x3F800000#32 - maskVal w))
    (Ideal.ofBits .f32 0xD01502F9#32)

/-- The largest entry of a row of 4096, from −∞. -/
def rowMax (v : Fin 4096 → EReal) : EReal :=
  (Finset.univ : Finset (Fin 4096)).fold max (Ideal.ofBits .f32 0xFF800000#32) v

/-- A row's softmax at one position: `exp (v s − max v) / ∑ s', exp (v s' − max v)`. -/
def softRow (v : Fin 4096 → EReal) (s : Fin 4096) : EReal :=
  Ideal.div (Ideal.exp (v s - rowMax v)) (∑ s' : Fin 4096, Ideal.exp (v s' - rowMax v))

/-- A row of attention weights from the row's raw scores and the mask words of the source positions. -/
def probsRow (sc : Fin 4096 → EReal) (mw : Fin 4096 → BitVec 32) (s : Fin 4096) : EReal :=
  softRow (fun s' => maskedEntry (sc s') (mw s')) s

/-- The maximum of a row taken from −∞ is at least −∞'s word: taking the maximum with that word again changes nothing. -/
theorem max_word_rowMax (v : Fin 4096 → EReal) : max (Ideal.ofBits .f32 0xFF800000#32) (rowMax v) = rowMax v :=
  max_eq_right ((Finset.le_fold_max _).mpr (Or.inl le_rfl))

section Arrays

variable (x0 x1 : (⟨3, ![4, 4096, 256]⟩ : Shape).Idx → EReal) (x2 : (⟨2, ![4, 4096]⟩ : Shape).Idx → BitVec 32)
  (x3 : (⟨2, ![256, 256]⟩ : Shape).Idx → EReal)

/-- The source state at (b, s) through the input projection, at output feature k. -/
def energy (b : Fin 4) (s : Fin 4096) (k : Fin 256) : EReal := ∑ d : Fin 256, x1 (ix3 b s d) * x3 (ix2 k d)

/-- The raw score of target position t against source position s. -/
def score (b : Fin 4) (t s : Fin 4096) : EReal := ∑ k : Fin 256, x0 (ix3 b t k) * energy x1 x3 b s k

/-- The attention weights. -/
def probs (b : Fin 4) (t s : Fin 4096) : EReal :=
  probsRow (fun s' => score x0 x1 x3 b t s') (fun s' => x2 (ix2 b s')) s

/-- The context vectors. -/
def context (b : Fin 4) (t : Fin 4096) (d : Fin 256) : EReal :=
  ∑ s : Fin 4096, probs x0 x1 x2 x3 b t s * x1 (ix3 b s d)

/-- The second result array, f32[4, 4096, 4096]: the attention weights. -/
def Gprobs : (⟨3, ![4, 4096, 4096]⟩ : Shape).Idx → EReal := fun i => probs x0 x1 x2 x3 (i 0) (i 1) (i 2)

/-- The first result array, f32[4, 4096, 256]: the context vectors. -/
def Gctx : (⟨3, ![4, 4096, 256]⟩ : Shape).Idx → EReal := fun i => context x0 x1 x2 x3 (i 0) (i 1) (i 2)

end Arrays

end Cert.AttnSpec

end
-- ==== Proof.KBlocks.lean ====
/-
  Where each window's block sits.  The grid has 32 points; point t is tile t % 8 (512 target rows) of batch t / 8.
  Read at an index, the target-state block of point t is rows 512·(t % 8) … of batch t / 8; the source-state block
  and the mask block are the whole batch t / 8; the projection's block is the whole matrix.  The mask array the
  kernel reads is the mask words with a unit middle axis.
-/
import proofs.«168220_j82317343195415_2_alg».proof.Proof.Gen.KernelIdeal.Frame
import Idealize.ShloMosaic.Lib.Pipeline.Value
import Idealize.ShloMosaic.Lib.ValueIdx
import Idealize.ShloMosaic.Lib.StableHlo.Run

noncomputable section

namespace Cert.KBlocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The printed index maps over the 32 grid points: batch t / 8, tile t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-- The target-state block of point t at (0, r, k) is the array at (t / 8, 512·(t % 8) + r, k). -/
theorem iblk0_apply (c : Dev nD) (t : Fin cfg0.N) (r : Fin 512) (k : Fin 256) (b : Fin 4) (T : Fin 4096)
    (hb : b.val = t.val / 8) (hT : T.val = t.val % 8 * 512 + r.val) :
    iblk m c 0 t (ix3 (0 : Fin 1) r k) = V m c main_arg0 (ix3 b T k) := by
  obtain ⟨e0, e1, e2, -⟩ := idx_facts t
  show V m c main_arg0 (((cfg0.win 0).blk t).view.emb (ix3 (0 : Fin 1) r k)) = V m c main_arg0 (ix3 b T k)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = T.val; omega
  | ⟨2, _⟩ => show win0_0.index t (2 : Fin 3) * 256 + 1 * k.val = k.val; omega

/-- The source-state block of point t at (0, s, d) is the array at (t / 8, s, d). -/
theorem iblk1_apply (c : Dev nD) (t : Fin cfg0.N) (s : Fin 4096) (d : Fin 256) (b : Fin 4) (hb : b.val = t.val / 8) :
    iblk m c 1 t (ix3 (0 : Fin 1) s d) = V m c main_arg1 (ix3 b s d) := by
  obtain ⟨-, -, -, e0, e1, e2, -⟩ := idx_facts t
  show V m c main_arg1 (((cfg0.win 1).blk t).view.emb (ix3 (0 : Fin 1) s d)) = V m c main_arg1 (ix3 b s d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 4096 + 1 * s.val = s.val; omega
  | ⟨2, _⟩ => show win0_1.index t (2 : Fin 3) * 256 + 1 * d.val = d.val; omega

/-- The mask block of point t at (0, 0, s) is the kernel's mask array at (t / 8, 0, s). -/
theorem iblk2_apply (c : Dev nD) (t : Fin cfg0.N) (s : Fin 4096) (b : Fin 4) (hb : b.val = t.val / 8) :
    iblk m c 2 t (ix3 (0 : Fin 1) (0 : Fin 1) s) = V m c main_v0 (ix3 b (0 : Fin 1) s) := by
  obtain ⟨-, -, -, -, -, -, e0, e1, e2, -⟩ := idx_facts t
  show V m c main_v0 (((cfg0.win 2).blk t).view.emb (ix3 (0 : Fin 1) (0 : Fin 1) s)) = V m c main_v0 (ix3 b (0 : Fin 1) s)
  refine congrArg (V m c main_v0) (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 4096 + 1 * s.val = s.val; omega

/-- The projection's block at (k, d) is the matrix at (k, d), at every point. -/
theorem iblk3_apply (c : Dev nD) (t : Fin cfg0.N) (k d : Fin 256) :
    iblk m c 3 t (ix2 k d) = V m c main_arg3 (ix2 k d) := by
  obtain ⟨-, -, -, -, -, -, -, -, -, e0, e1, -⟩ := idx_facts t
  show V m c main_arg3 (((cfg0.win 3).blk t).view.emb (ix2 k d)) = V m c main_arg3 (ix2 k d)
  refine congrArg (V m c main_arg3) (funext fun a => Fin.ext ?_)
  match a with
  | ⟨0, _⟩ => show win0_3.index t (0 : Fin 2) * 256 + 1 * k.val = k.val; omega
  | ⟨1, _⟩ => show win0_3.index t (1 : Fin 2) * 256 + 1 * d.val = d.val; omega

/-- The mask array the kernel reads is the mask words given a unit middle axis (the one host operation before the
    call): entry (b, 0, s) is the mask word (b, s). -/
theorem V_mask_apply (c : Dev nD) (b : Fin 4) (s : Fin 4096) :
    V m c main_v0 (ix3 b (0 : Fin 1) s) = m ((c : Thread nD τ).loc main_arg2) (ix2 b s) := by
  have e : (V m c main_v0 : S4x1x4096.Idx → Elt F .i32)
      = broadcastInDim S4x1x4096 ![0, 2] bcast_S4x4096_S4x1x4096_0_2 (m ((c : Thread nD τ).loc main_arg2)) := by
    dsimp only [V, hostOps0]; after_results
  rw [e]
  exact broadcastInDim_apply _ bcast_S4x4096_S4x1x4096_0_2 _ (ix3 b (0 : Fin 1) s) (ix2 b s) (fun a => match a with
    | ⟨0, _⟩ => by show b.val = if (4 : Nat) = 1 then 0 else b.val; rw [if_neg (by decide)]
    | ⟨1, _⟩ => by show s.val = if (4096 : Nat) = 1 then 0 else s.val; rw [if_neg (by decide)])

end Cert.KBlocks

end
-- ==== Proof.KPieces.lean ====
/-
  What one run of the kernel body leaves behind, as the body's own arithmetic of what it found.  At the first tile of
  a batch the body copies the source block into the first carried buffer, projects it into the second, and computes the
  tile's weights and context from those fresh copies; at every other tile it computes them from the copies the tile
  before left, and leaves the copies alone.  Each buffer is written by one store over its whole extent, so what it
  holds afterwards is that store's value, and a load of a buffer just stored reads that value.
-/
import proofs.«168220_j82317343195415_2_alg».proof.Proof.Gen.KernelIdeal.Frame
import Idealize.ShloMosaic.Lib.Pipeline.Value
import Idealize.ShloMosaic.Lib.Tactic

noncomputable section

namespace Cert.KPieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x512x256 .f32) (harg2 : arg2.IsWhole)
  (arg3 : Memref sig .tc .vmem S1x4096x256 .f32) (harg3 : arg3.IsWhole)
  (arg4 : Memref sig .tc .vmem S1x1x4096 .i32) (harg4 : arg4.IsWhole)
  (arg5 : Memref sig .tc .vmem S256x256 .f32) (harg5 : arg5.IsWhole)
  (arg6 : Memref sig .tc .vmem S1x512x256 .f32) (harg6 : arg6.IsWhole)
  (arg7 : Memref sig .tc .vmem S1x512x4096 .f32) (harg7 : arg7.IsWhole)
  (arg8 : Memref sig .tc .vmem S4096x256 .bf16) (harg8 : arg8.IsWhole)
  (arg9 : Memref sig .tc .vmem S256x4096 .f32) (harg9 : arg9.IsWhole)
  (x0 : Vec F S1x512x256 .f32) (x1 : Vec F S1x4096x256 .f32) (x2 : Vec F S1x1x4096 .i32) (x3 : Vec F S256x256 .f32)

/-! ## The first tile of a batch -/

/-- The first carried buffer after a batch's first tile: the cast copy of the source block. -/
theorem copy_A (hc0 : cond0_0 i) :
    sout0_A_0 c i arg2 harg2 arg3 harg3 arg4 harg4 arg5 harg5 arg6 harg6 arg7 harg7 arg8 harg8 arg9 harg9 hc0 x0 x1 x2 x3 = k0_pay2 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

/-- The second carried buffer after a batch's first tile: the projection of the fresh copy. -/
theorem energy_A (hc0 : cond0_0 i) :
    sout0_A_1 c i arg2 harg2 arg3 harg3 arg4 harg4 arg5 harg5 arg6 harg6 arg7 harg7 arg8 harg8 arg9 harg9 hc0 x0 x1 x2 x3 = k0_pay3 x3 (k0_pay2 x1) := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

/-- The weights' block after a batch's first tile, from the fresh projection. -/
theorem weights_A (hc0 : cond0_0 i) :
    out0_A_5 c i arg2 harg2 arg3 harg3 arg4 harg4 arg5 harg5 arg6 harg6 arg7 harg7 arg8 harg8 arg9 harg9 hc0 x0 x1 x2 x3 = k0_pay5 x0 (k0_pay3 x3 (k0_pay2 x1)) x2 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

/-- The context's block after a batch's first tile, from the weights and the fresh copy. -/
theorem context_A (hc0 : cond0_0 i) :
    out0_A_4 c i arg2 harg2 arg3 harg3 arg4 harg4 arg5 harg5 arg6 harg6 arg7 harg7 arg8 harg8 arg9 harg9 hc0 x0 x1 x2 x3 = k0_pay1 (k0_pay6 x0 (k0_pay3 x3 (k0_pay2 x1)) x2) (k0_pay2 x1) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

/-! ## Every other tile -/

/-- The weights' block after any other tile, from the projection the tile before left. -/
theorem weights_B (hc0 : ¬cond0_0 i) (xs0 : Vec F S4096x256 .bf16) (xs1 : Vec F S256x4096 .f32) :
    out0_B_5 c i arg2 harg2 arg3 harg3 arg4 harg4 arg5 harg5 arg6 harg6 arg7 harg7 arg8 harg8 arg9 harg9 hc0 x0 x1 x2 x3 xs0 xs1 = k0_pay5 x0 xs1 x2 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  rw [View.canon_unit_zero hz3]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

/-- The context's block after any other tile, from the weights and the copy the tile before left. -/
theorem context_B (hc0 : ¬cond0_0 i) (xs0 : Vec F S4096x256 .bf16) (xs1 : Vec F S256x4096 .f32) :
    out0_B_4 c i arg2 harg2 arg3 harg3 arg4 harg4 arg5 harg5 arg6 harg6 arg7 harg7 arg8 harg8 arg9 harg9 hc0 x0 x1 x2 x3 xs0 xs1 = k0_pay1 (k0_pay6 x0 xs1 x2) xs0 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readCov_unit_zero (S := S4096x256) _ hz2, View.readCov_unit_zero (S := S256x4096) _ hz2,
    View.readAt_eq_ld, harg2.read_unread, harg3.read_unread, harg4.read_unread, harg5.read_unread, harg8.read_unread,
    harg9.read_unread, View.ld_unit_zero (S := S1x512x256) hz3, View.ld_unit_zero (S := S1x4096x256) hz3,
    View.ld_unit_zero (S := S1x1x4096) hz3, View.ld_unit_zero (S := S256x256) hz2, View.ld_unit_zero (S := S4096x256) hz2,
    View.ld_unit_zero (S := S256x4096) hz2]

end Cert.KPieces

end
-- ==== Proof.KPoints.lean ====
/-
  What the run's buffers hold after each grid point, in the body's own arithmetic.  After a batch's first tile the two
  carried buffers hold the copy and the projection of that batch's source block, and the two output blocks are
  computed from them; after any other tile the carried buffers hold what they held before, and the output blocks are
  computed from that.  So at every point the output blocks are the same two expressions of the point's target block,
  its mask block, and what the carried buffers hold after the point.
-/
import proofs.«168220_j82317343195415_2_alg».proof.Proof.Gen.KernelIdeal.Frame
import proofs.«168220_j82317343195415_2_alg».proof.Proof.KPieces

noncomputable section

namespace Cert.KPoints

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- What the buffers held after the point before `t`. -/
abbrev before (c : Dev nD) (t : Fin cfg0.N) :=
  outsAt0 m c (t.val - 1) (Nat.lt_of_le_of_lt (Nat.sub_le _ _) t.isLt)

/-- After a batch's first tile: everything from the point's own blocks. -/
theorem outs_first (c : Dev nD) (t : Fin cfg0.N) (h0 : t.val % 8 = 0) :
    outsAt0 m c t.val t.isLt
      = (k0_pay1 (k0_pay6 (iblk m c 0 t) (k0_pay3 (iblk m c 3 t) (k0_pay2 (iblk m c 1 t))) (iblk m c 2 t)) (k0_pay2 (iblk m c 1 t)),
         k0_pay5 (iblk m c 0 t) (k0_pay3 (iblk m c 3 t) (k0_pay2 (iblk m c 1 t))) (iblk m c 2 t),
         k0_pay2 (iblk m c 1 t),
         k0_pay3 (iblk m c 3 t) (k0_pay2 (iblk m c 1 t))) := by
  rw [outsAt0_A m c t h0]
  exact congrArg₂ Prod.mk (Cert.KPieces.context_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0))
    (congrArg₂ Prod.mk (Cert.KPieces.weights_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0))
      (congrArg₂ Prod.mk (Cert.KPieces.copy_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0))
        (Cert.KPieces.energy_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0))))

/-- After any other tile: the outputs from what the carried buffers held, which stays. -/
theorem outs_other (c : Dev nD) (t : Fin cfg0.N) (h0 : ¬t.val % 8 = 0) :
    outsAt0 m c t.val t.isLt
      = (k0_pay1 (k0_pay6 (iblk m c 0 t) (before m c t).2.2.2 (iblk m c 2 t)) (before m c t).2.2.1,
         k0_pay5 (iblk m c 0 t) (before m c t).2.2.2 (iblk m c 2 t),
         (before m c t).2.2.1,
         (before m c t).2.2.2) := by
  rw [outsAt0_B m c t h0]
  exact congrArg₂ Prod.mk (Cert.KPieces.context_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (fun h => h0 ((hcond0_0 t).mp h)) (before m c t).2.2.1 (before m c t).2.2.2)
    (congrArg₂ Prod.mk (Cert.KPieces.weights_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (fun h => h0 ((hcond0_0 t).mp h)) (before m c t).2.2.1 (before m c t).2.2.2)
      rfl)

/-- At every point the two output blocks are one expression of the point's target and mask blocks and of what the
    carried buffers hold after the point. -/
theorem outs_uniform (c : Dev nD) (t : Fin cfg0.N) :
    (outsAt0 m c t.val t.isLt).1
        = k0_pay1 (k0_pay6 (iblk m c 0 t) (outsAt0 m c t.val t.isLt).2.2.2 (iblk m c 2 t)) (outsAt0 m c t.val t.isLt).2.2.1
    ∧ (outsAt0 m c t.val t.isLt).2.1 = k0_pay5 (iblk m c 0 t) (outsAt0 m c t.val t.isLt).2.2.2 (iblk m c 2 t) := by
  by_cases h0 : t.val % 8 = 0
  · rw [outs_first m c t h0]; exact ⟨rfl, rfl⟩
  · rw [outs_other m c t h0]; exact ⟨rfl, rfl⟩

/-- The carried buffers after a batch's first tile. -/
theorem carried_first (c : Dev nD) (t : Fin cfg0.N) (h0 : t.val % 8 = 0) :
    (outsAt0 m c t.val t.isLt).2.2.1 = k0_pay2 (iblk m c 1 t)
    ∧ (outsAt0 m c t.val t.isLt).2.2.2 = k0_pay3 (iblk m c 3 t) (k0_pay2 (iblk m c 1 t)) := by
  rw [outs_first m c t h0]; exact ⟨rfl, rfl⟩

/-- The carried buffers after any other tile: as before it. -/
theorem carried_other (c : Dev nD) (t : Fin cfg0.N) (h0 : ¬t.val % 8 = 0) :
    (outsAt0 m c t.val t.isLt).2.2.1 = (before m c t).2.2.1
    ∧ (outsAt0 m c t.val t.isLt).2.2.2 = (before m c t).2.2.2 := by
  rw [outs_other m c t h0]; exact ⟨rfl, rfl⟩

end Cert.KPoints

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«168220_j82317343195415_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«168220_j82317343195415_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.KPayloads.lean ====
/-
  The kernel body's arithmetic, read at an index over the extended reals: what each store of the body holds as a
  function of the values the body loaded.
-/
import proofs.«168220_j82317343195415_2_alg».proof.Proof.Gen.KernelIdeal.Skeleton
import proofs.«168220_j82317343195415_2_alg».proof.Proof.AttnSpec
import proofs.«168220_j82317343195415_2_alg».proof.Proof.LibRowsDot
import proofs.«168220_j82317343195415_2_alg».proof.Proof.LibPlainDot
import proofs.«168220_j82317343195415_2_alg».proof.Proof.LibRowSum
import proofs.«168220_j82317343195415_2_alg».proof.Proof.LibLayout
import proofs.«168220_j82317343195415_2_alg».proof.Proof.LibVecIx2
import proofs.«168220_j82317343195415_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KPayloads

open Idealize.ShloMosaic Idealize.ShloMosaic.ValueIdx Cert.KernelIdeal Cert.KernelIdeal.Gen

/-- The two dimension-number records of the plain products and of the product with a transposed right operand are
    the library's. -/
theorem dot_pv_eq : dot_S512x4096_S4096x256_S512x256_1_0_0_1_n_n = DotDims.plain 512 4096 256 := rfl

theorem dot_sc_eq : dot_S512x256_S256x4096_S512x4096_1_0_0_1_n_n = DotDims.plain 512 256 4096 := rfl

theorem dot_en_eq : dot_S256x256_S4096x256_S256x4096_1_1_0_0_n_n = DotDims.transposedRhs 256 256 4096 := rfl

/-- The cast copy of the source block: entry (s, d) is the block's entry (0, s, d). -/
theorem pay2_apply (x1 : Vec Ideal S1x4096x256 .f32) (s : Fin 4096) (d : Fin 256) :
    k0_pay2 (F := Ideal) x1 (ix2 s d) = x1 (ix3 (0 : Fin 1) s d) := by
  unfold k0_pay2
  refine (congrFun (shapeCast_self _ _) (ix2 s d)).trans ?_
  exact shapeCast_1ab_ab_apply x1 _ s d

/-- The projected source states, transposed: entry (k, s) is the sum over d of W(k, d) · S(s, d). -/
theorem pay3_apply (x3 : Vec Ideal S256x256 .f32) (S0 : Vec Ideal S4096x256 .bf16) (k : Fin 256) (s : Fin 4096) :
    k0_pay3 (F := Ideal) x3 S0 (ix2 k s) = ∑ d : Fin 256, x3 (ix2 k d) * S0 (ix2 s d) := by
  unfold k0_pay3
  refine (congrFun (shapeCast_self _ _) (ix2 k s)).trans ?_
  rw [dot_en_eq]
  exact Cert.Lib.RowsDot.matmul_zero_apply (M := 256) (K := 256) (N := 4096) (φ₁ := .bf16) (φ₂ := .bf16) x3 S0 k s

/-! ## The pieces of the attention weights -/

/-- The raw scores of the tile: the target block's rows against the energy's columns. -/
def scoreMat (x0 : Vec Ideal S1x512x256 .f32) (E : Vec Ideal S256x4096 .f32) : FVec Ideal S512x4096 .f32 :=
  matmul dot_S512x256_S256x4096_S512x4096_1_0_0_1_n_n none
    (truncf .bf16 (shapeCast S512x256 x0 shapeCasts_S1x512x256_S512x256) bitsLt_bf16_f32)
    (truncf .bf16 E bitsLt_bf16_f32) (constant S512x4096 .f32 0x00000000#32)

/-- The score at (r, k) is the sum over c of the target block's (0, r, c) times the energy's (c, k). -/
theorem scoreMat_apply (x0 : Vec Ideal S1x512x256 .f32) (E : Vec Ideal S256x4096 .f32) (r : Fin 512) (k : Fin 4096) :
    scoreMat x0 E (ix2 r k) = ∑ c : Fin 256, x0 (ix3 (0 : Fin 1) r c) * E (ix2 c k) := by
  unfold scoreMat
  rw [dot_sc_eq]
  refine (Cert.PlainDot.matmul_zero_plain_apply (M := 512) (K := 256) (N := 4096) none _ _ r k).trans ?_
  refine Finset.sum_congr rfl fun c _ => ?_
  exact congrArg (· * E (ix2 c k)) (shapeCast_1ab_ab_apply x0 _ r c)

/-- The mask words of the source positions read as numbers, as a one-row matrix. -/
def maskRow (x2 : Vec Ideal S1x1x4096 .i32) : FVec Ideal S1x4096 .f32 :=
  sitofp .f32 (shapeCast S1x4096 x2 shapeCasts_S1x1x4096_S1x4096)

theorem maskRow_apply (x2 : Vec Ideal S1x1x4096 .i32) (k : Fin 4096) :
    maskRow x2 (ix2 (0 : Fin 1) k) = Cert.AttnSpec.maskVal (x2 (ix3 (0 : Fin 1) (0 : Fin 1) k)) :=
  congrArg (FloatOps.sitofp (F := Ideal) .f32) (shapeCast_1ab_ab_apply x2 _ (0 : Fin 1) k)

/-- The masked and clamped scores of the tile. -/
def maskedMat (x0 : Vec Ideal S1x512x256 .f32) (E : Vec Ideal S256x4096 .f32) (x2 : Vec Ideal S1x1x4096 .i32) :
    FVec Ideal S512x4096 .f32 :=
  maximumf
    (subf (mulf (scoreMat x0 E) (broadcastTo S512x4096 (maskRow x2) broadcasts_S1x4096_S512x4096))
      (broadcastTo S512x4096
        (mulf (broadcast S1x4096 (Scalar.ofBits .f32 0x51BA43B7#32))
          (subf (broadcast S1x4096 (Scalar.ofBits .f32 0x3F800000#32)) (maskRow x2)))
        broadcasts_S1x4096_S512x4096))
    (broadcast S512x4096 (Scalar.ofBits .f32 0xD01502F9#32))

/-- The masked score at (r, k): the score times the mask number, less the penalty on masked positions, clamped below. -/
theorem maskedMat_apply (x0 : Vec Ideal S1x512x256 .f32) (E : Vec Ideal S256x4096 .f32) (x2 : Vec Ideal S1x1x4096 .i32)
    (r : Fin 512) (k : Fin 4096) :
    maskedMat x0 E x2 (ix2 r k)
      = Cert.AttnSpec.maskedEntry (∑ c : Fin 256, x0 (ix3 (0 : Fin 1) r c) * E (ix2 c k))
          (x2 (ix3 (0 : Fin 1) (0 : Fin 1) k)) := by
  have h1 : broadcastTo S512x4096 (maskRow x2) broadcasts_S1x4096_S512x4096 (ix2 r k)
      = Cert.AttnSpec.maskVal (x2 (ix3 (0 : Fin 1) (0 : Fin 1) k)) :=
    (broadcastTo_1b_ab_apply (maskRow x2) broadcasts_S1x4096_S512x4096 r k).trans (maskRow_apply x2 k)
  have h2 : broadcastTo S512x4096
        (mulf (broadcast S1x4096 (Scalar.ofBits .f32 0x51BA43B7#32))
          (subf (broadcast S1x4096 (Scalar.ofBits .f32 0x3F800000#32)) (maskRow x2)))
        broadcasts_S1x4096_S512x4096 (ix2 r k)
      = Ideal.ofBits .f32 0x51BA43B7#32
          * (Ideal.ofBits .f32 0x3F800000#32 - Cert.AttnSpec.maskVal (x2 (ix3 (0 : Fin 1) (0 : Fin 1) k))) :=
    (broadcastTo_1b_ab_apply _ broadcasts_S1x4096_S512x4096 r k).trans
      (congrArg (fun t => Ideal.ofBits .f32 0x51BA43B7#32 * (Ideal.ofBits .f32 0x3F800000#32 - t)) (maskRow_apply x2 k))
  show max (scoreMat x0 E (ix2 r k) * broadcastTo S512x4096 (maskRow x2) broadcasts_S1x4096_S512x4096 (ix2 r k)
      - broadcastTo S512x4096
        (mulf (broadcast S1x4096 (Scalar.ofBits .f32 0x51BA43B7#32))
          (subf (broadcast S1x4096 (Scalar.ofBits .f32 0x3F800000#32)) (maskRow x2)))
        broadcasts_S1x4096_S512x4096 (ix2 r k)) (Ideal.ofBits .f32 0xD01502F9#32) = _
  rw [h1, h2, scoreMat_apply]
  rfl

/-- The softmax of every row of a tile, as the body computes it: the row maximum from −∞ stood up as a column and
    broadcast, the exponentials of the differences, their row sums stood up and broadcast, the quotient. -/
def softTile (M : FVec Ideal S512x4096 .f32) : FVec Ideal S512x4096 .f32 :=
  have v22 : FVec Ideal S512 .f32 := multiReduction .maximumf [1] S512 M 0xFF800000#32 reduces_S512x4096_S512 (.inl rfl) rfl
  have v23 : FVec Ideal S512x1 .f32 := shapeCast S512x1 v22 shapeCasts_S512_S512x1
  have v24 : FVec Ideal S512x4096 .f32 := broadcastTo S512x4096 v23 broadcasts_S512x1_S512x4096
  have v25 : FVec Ideal S512x4096 .f32 := subf M v24
  have v26 : FVec Ideal S512x4096 .f32 := exp v25
  have v27 : FVec Ideal S512 .f32 := multiReduction .add [1] S512 v26 0x00000000#32 reduces_S512x4096_S512 (.inl rfl) rfl
  have v28 : FVec Ideal S512x1 .f32 := shapeCast S512x1 v27 shapeCasts_S512_S512x1
  have v29 : FVec Ideal S512x4096 .f32 := broadcastTo S512x4096 v28 broadcasts_S512x1_S512x4096
  divf v26 v29

/-- The body's weights are the row softmax of the masked scores. -/
theorem pay4_eq (x0 : Vec Ideal S1x512x256 .f32) (E : Vec Ideal S256x4096 .f32) (x2 : Vec Ideal S1x1x4096 .i32) :
    k0_pay4 (F := Ideal) x0 E x2 = softTile (maskedMat x0 E x2) := rfl

/-- The broadcast column of row maxima at (r, s) is the row's maximum from −∞. -/
theorem maxCol_apply (M : FVec Ideal S512x4096 .f32) (r : Fin 512) (s : Fin 4096) :
    broadcastTo S512x4096
        (shapeCast S512x1 (multiReduction .maximumf [1] S512 M 0xFF800000#32 reduces_S512x4096_S512 (.inl rfl) rfl)
          shapeCasts_S512_S512x1) broadcasts_S512x1_S512x4096 (ix2 r s)
      = Cert.AttnSpec.rowMax (fun s' => M (ix2 r s')) :=
  (Cert.Lib.VecIx2.bcast_col _ broadcasts_S512x1_S512x4096 r s).trans
    (Cert.Lib.RowMax.rowmax_column (a := 512) (b := 4096) M reduces_S512x4096_S512 (.inl rfl) rfl
      shapeCasts_S512_S512x1 r (0 : Fin 1))

/-- The broadcast column of row sums at (r, s) is the row's sum. -/
theorem sumCol_apply (X : FVec Ideal S512x4096 .f32) (r : Fin 512) (s : Fin 4096) :
    broadcastTo S512x4096
        (shapeCast S512x1 (multiReduction .add [1] S512 X 0x00000000#32 reduces_S512x4096_S512 (.inl rfl) rfl)
          shapeCasts_S512_S512x1) broadcasts_S512x1_S512x4096 (ix2 r s)
      = ∑ k : Fin 4096, X (ix2 r k) :=
  (Cert.Lib.VecIx2.bcast_col _ broadcasts_S512x1_S512x4096 r s).trans
    (Cert.Lib.RowSum.rowsum_column (a := 512) (b := 4096) X reduces_S512x4096_S512 (.inl rfl) rfl
      shapeCasts_S512_S512x1 r (0 : Fin 1))

/-- Row r of the soft tile is the softmax of row r. -/
theorem softTile_apply (M : FVec Ideal S512x4096 .f32) (r : Fin 512) (s : Fin 4096) :
    softTile M (ix2 r s) = Cert.AttnSpec.softRow (fun s' => M (ix2 r s')) s := by
  unfold softTile Cert.AttnSpec.softRow
  refine congrArg₂ Ideal.div ?_ ?_
  · exact congrArg (fun t => Ideal.exp (M (ix2 r s) - t)) (maxCol_apply M r s)
  · refine (sumCol_apply _ r s).trans ?_
    refine Finset.sum_congr rfl fun k _ => ?_
    exact congrArg (fun t => Ideal.exp (M (ix2 r k) - t)) (maxCol_apply M r k)

/-- The attention weights of the tile: row r is the masked softmax of the row's scores, the score at s' the sum over k
    of the target block's (0, r, k) times the energy's (k, s'), the mask word of s' the mask block's (0, 0, s'). -/
theorem pay4_apply (x0 : Vec Ideal S1x512x256 .f32) (E : Vec Ideal S256x4096 .f32) (x2 : Vec Ideal S1x1x4096 .i32)
    (r : Fin 512) (s : Fin 4096) :
    k0_pay4 (F := Ideal) x0 E x2 (ix2 r s)
      = Cert.AttnSpec.probsRow (fun s' => ∑ k : Fin 256, x0 (ix3 (0 : Fin 1) r k) * E (ix2 k s'))
          (fun s' => x2 (ix3 (0 : Fin 1) (0 : Fin 1) s')) s := by
  rw [pay4_eq, softTile_apply]
  unfold Cert.AttnSpec.probsRow
  exact congrArg (fun v => Cert.AttnSpec.softRow v s) (funext fun s' => maskedMat_apply x0 E x2 r s')

/-- The stored weights: the tile with a leading unit axis. -/
theorem pay5_apply (x0 : Vec Ideal S1x512x256 .f32) (E : Vec Ideal S256x4096 .f32) (x2 : Vec Ideal S1x1x4096 .i32)
    (r : Fin 512) (s : Fin 4096) :
    k0_pay5 (F := Ideal) x0 E x2 (ix3 (0 : Fin 1) r s) = k0_pay4 (F := Ideal) x0 E x2 (ix2 r s) := by
  unfold k0_pay5
  exact shapeCast_ab_1ab_apply (k0_pay4 (F := Ideal) x0 E x2) _ (0 : Fin 1) r s

/-- The weights handed to the last product: a change of format only. -/
theorem pay6_apply (x0 : Vec Ideal S1x512x256 .f32) (E : Vec Ideal S256x4096 .f32) (x2 : Vec Ideal S1x1x4096 .i32)
    (r : Fin 512) (s : Fin 4096) :
    k0_pay6 (F := Ideal) x0 E x2 (ix2 r s) = k0_pay4 (F := Ideal) x0 E x2 (ix2 r s) := rfl

/-- The context tile: entry (0, r, d) is the sum over s of the weights' (r, s) times the source copy's (s, d). -/
theorem pay1_apply (Pw : FVec Ideal S512x4096 .bf16) (S0 : Vec Ideal S4096x256 .bf16) (r : Fin 512) (d : Fin 256) :
    k0_pay1 (F := Ideal) Pw S0 (ix3 (0 : Fin 1) r d) = ∑ s : Fin 4096, Pw (ix2 r s) * S0 (ix2 s d) := by
  unfold k0_pay1
  refine (shapeCast_ab_1ab_apply _ _ (0 : Fin 1) r d).trans ?_
  rw [dot_pv_eq]
  exact Cert.PlainDot.matmul_zero_plain_apply (M := 512) (K := 4096) (N := 256) none Pw S0 r d

end Cert.KPayloads

end
-- ==== Proof.KCarried.lean ====
/-
  The two buffers the kernel carries from tile to tile.  After every grid point n they hold the source states of batch
  n / 8 and those states through the input projection, transposed: after a batch's first tile because the tile has just
  written them from that batch's source block, after any other tile because the tile before left them and the batch is
  the same.  With that, every tile's two output blocks are the specification's weights and context at the tile's rows:
  entry (0, r, ·) of the block of point t is row 512·(t % 8) + r of batch t / 8.  The kernel projects as W · h_s where
  the specification writes h_s · W: products of extended reals commute.
-/
import proofs.«168220_j82317343195415_2_alg».proof.Proof.Gen.KernelIdeal.Frame
import proofs.«168220_j82317343195415_2_alg».proof.Proof.AttnSpec
import proofs.«168220_j82317343195415_2_alg».proof.Proof.KPoints
import proofs.«168220_j82317343195415_2_alg».proof.Proof.KBlocks
import proofs.«168220_j82317343195415_2_alg».proof.Proof.KPayloads

noncomputable section

namespace Cert.KCarried

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four arrays as the call finds them, as functions into the extended reals (the mask: into 32-bit words). -/
abbrev ht (c : Dev nD) : S4x4096x256.Idx → EReal := V m c main_arg0
abbrev hs (c : Dev nD) : S4x4096x256.Idx → EReal := V m c main_arg1
abbrev mw (c : Dev nD) : S4x4096.Idx → BitVec 32 := m ((c : Thread nD τ).loc main_arg2)
abbrev Wm (c : Dev nD) : S256x256.Idx → EReal := V m c main_arg3

/-- After point n the first carried buffer holds batch n / 8's source states, the second their projection:
    entry (k, s) the sum over d of W(k, d) · h_s(b, s, d). -/
def Carried (c : Dev nD) (n : ℕ) (hn : n < cfg0.N) : Prop :=
  (∀ (s : Fin 4096) (d : Fin 256) (b : Fin 4), b.val = n / 8 →
      (outsAt0 m c n hn).2.2.1 (ix2 s d) = hs m c (ix3 b s d))
  ∧ (∀ (k : Fin 256) (s : Fin 4096) (b : Fin 4), b.val = n / 8 →
      (outsAt0 m c n hn).2.2.2 (ix2 k s)
        = ∑ d : Fin 256, Wm m c (ix2 k d) * hs m c (ix3 b s d))

/-- A batch's first tile writes them from the batch's own source block. -/
theorem carried_of_first (c : Dev nD) (t : Fin cfg0.N) (h0 : t.val % 8 = 0) : Carried m c t.val t.isLt := by
  obtain ⟨e1, e2⟩ := Cert.KPoints.carried_first m c t h0
  refine ⟨fun s d b hb => ?_, fun k s b hb => ?_⟩
  · rw [e1]
    exact (Cert.KPayloads.pay2_apply (iblk m c 1 t) s d).trans (Cert.KBlocks.iblk1_apply m c t s d b hb)
  · rw [e2]
    refine (Cert.KPayloads.pay3_apply (iblk m c 3 t) (k0_pay2 (iblk m c 1 t)) k s).trans
      (Finset.sum_congr rfl fun d _ => ?_)
    exact congrArg₂ (fun (a b : EReal) => a * b) (Cert.KBlocks.iblk3_apply m c t k d)
      ((Cert.KPayloads.pay2_apply (iblk m c 1 t) s d).trans (Cert.KBlocks.iblk1_apply m c t s d b hb))

/-- Any other tile leaves them, and is of the same batch as the tile before. -/
theorem carried_of_other (c : Dev nD) (t : Fin cfg0.N) (h0 : ¬t.val % 8 = 0)
    (ih : Carried m c (t.val - 1) (Nat.lt_of_le_of_lt (Nat.sub_le _ _) t.isLt)) : Carried m c t.val t.isLt := by
  obtain ⟨e1, e2⟩ := Cert.KPoints.carried_other m c t h0
  have hq : t.val / 8 = (t.val - 1) / 8 := by omega
  refine ⟨fun s d b hb => ?_, fun k s b hb => ?_⟩
  · rw [e1]; exact ih.1 s d b (hb.trans hq)
  · rw [e2]; exact ih.2 k s b (hb.trans hq)

/-- So after every point, by induction along the grid. -/
theorem carried (c : Dev nD) : ∀ (n : ℕ) (hn : n < cfg0.N), Carried m c n hn
  | 0, hn => carried_of_first m c ⟨0, hn⟩ rfl
  | n + 1, hn => by
    by_cases h0 : (n + 1) % 8 = 0
    · exact carried_of_first m c ⟨n + 1, hn⟩ h0
    · exact carried_of_other m c ⟨n + 1, hn⟩ h0 (carried c n (Nat.lt_of_succ_lt hn))

/-- The weights of tile t before the leading unit axis: entry (r, s) is the specification's weight of target row
    512·(t % 8) + r of batch t / 8 on source position s. -/
theorem tile_at (c : Dev nD) (t : Fin cfg0.N) (r : Fin 512) (s : Fin 4096) (b : Fin 4) (T : Fin 4096)
    (hb : b.val = t.val / 8) (hT : T.val = t.val % 8 * 512 + r.val) :
    k0_pay4 (F := Ideal) (iblk m c 0 t) (outsAt0 m c t.val t.isLt).2.2.2 (iblk m c 2 t) (ix2 r s)
      = Cert.AttnSpec.probs (ht m c) (hs m c) (mw m c) (Wm m c) b T s := by
  refine (Cert.KPayloads.pay4_apply (iblk m c 0 t) (outsAt0 m c t.val t.isLt).2.2.2 (iblk m c 2 t) r s).trans ?_
  unfold Cert.AttnSpec.probs
  refine congrArg₂ (fun sc mw => Cert.AttnSpec.probsRow sc mw s) (funext fun s' => ?_) (funext fun s' => ?_)
  · unfold Cert.AttnSpec.score Cert.AttnSpec.energy
    refine Finset.sum_congr rfl fun k _ => ?_
    refine congrArg₂ (fun (a b : EReal) => a * b) (Cert.KBlocks.iblk0_apply m c t r k b T hb hT) ?_
    exact ((carried m c t.val t.isLt).2 k s' b hb).trans (Finset.sum_congr rfl fun d _ => mul_comm _ _)
  · exact (Cert.KBlocks.iblk2_apply m c t s' b hb).trans (Cert.KBlocks.V_mask_apply m c b s')

/-- The weights' block of point t at (0, r, s). -/
theorem weights_at (c : Dev nD) (t : Fin cfg0.N) (r : Fin 512) (s : Fin 4096) (b : Fin 4) (T : Fin 4096)
    (hb : b.val = t.val / 8) (hT : T.val = t.val % 8 * 512 + r.val) :
    (outsAt0 m c t.val t.isLt).2.1 (ix3 (0 : Fin 1) r s) = Cert.AttnSpec.probs (ht m c) (hs m c) (mw m c) (Wm m c) b T s := by
  refine (congrFun (Cert.KPoints.outs_uniform m c t).2 _).trans ?_
  refine (Cert.KPayloads.pay5_apply (iblk m c 0 t) (outsAt0 m c t.val t.isLt).2.2.2 (iblk m c 2 t) r s).trans ?_
  exact tile_at m c t r s b T hb hT

/-- The context's block of point t at (0, r, d): the weights of the row against the batch's source states. -/
theorem context_at (c : Dev nD) (t : Fin cfg0.N) (r : Fin 512) (d : Fin 256) (b : Fin 4) (T : Fin 4096)
    (hb : b.val = t.val / 8) (hT : T.val = t.val % 8 * 512 + r.val) :
    (outsAt0 m c t.val t.isLt).1 (ix3 (0 : Fin 1) r d) = Cert.AttnSpec.context (ht m c) (hs m c) (mw m c) (Wm m c) b T d := by
  refine (congrFun (Cert.KPoints.outs_uniform m c t).1 _).trans ?_
  refine (Cert.KPayloads.pay1_apply (k0_pay6 (iblk m c 0 t) (outsAt0 m c t.val t.isLt).2.2.2 (iblk m c 2 t))
    (outsAt0 m c t.val t.isLt).2.2.1 r d).trans ?_
  unfold Cert.AttnSpec.context
  refine Finset.sum_congr rfl fun s _ => ?_
  refine congrArg₂ (fun (a b : EReal) => a * b) ?_ ((carried m c t.val t.isLt).1 s d b hb)
  refine (Cert.KPayloads.pay6_apply (iblk m c 0 t) (outsAt0 m c t.val t.isLt).2.2.2 (iblk m c 2 t) r s).trans ?_
  exact tile_at m c t r s b T hb hT

end Cert.KCarried

end
-- ==== Proof.KFinal.lean ====
/-
  From blocks to arrays.  The grid's 32 points write 32 blocks of each result, block t being rows
  512·(t % 8) … 512·(t % 8) + 511 of batch t / 8, all columns; the blocks are disjoint and together they are the whole
  array, row T of batch b lying in block 8·b + T / 512.  Each block is the specification's array read through the block,
  so after the run each result array is the specification's.
-/
import proofs.«168220_j82317343195415_2_alg».proof.Proof.Gen.KernelIdeal.Value
import proofs.«168220_j82317343195415_2_alg».proof.Proof.AttnSpec
import proofs.«168220_j82317343195415_2_alg».proof.Proof.KBlocks
import proofs.«168220_j82317343195415_2_alg».proof.Proof.KCarried
import Idealize.ShloMosaic.Lib.Pipeline.Value

noncomputable section

namespace Cert.KFinal

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The specification's weights of the arrays as the call finds them. -/
abbrev specP (c : Dev nD) : S4x4096x4096.Idx → EReal := Cert.AttnSpec.Gprobs (Cert.KCarried.ht m c) (Cert.KCarried.hs m c) (Cert.KCarried.mw m c) (Cert.KCarried.Wm m c)
/-- The specification's context of the arrays as the call finds them. -/
abbrev specC (c : Dev nD) : S4x4096x256.Idx → EReal := Cert.AttnSpec.Gctx (Cert.KCarried.ht m c) (Cert.KCarried.hs m c) (Cert.KCarried.mw m c) (Cert.KCarried.Wm m c)

/-! ## The weights (the second result) -/

/-- Entry (0, r, s) of the weights' block of point t is the array's (t / 8, 512·(t % 8) + r, s). -/
theorem emb5 (t : Fin cfg0.N) (r : Fin 512) (s : Fin 4096) (b : Fin 4) (T : Fin 4096)
    (hb : b.val = t.val / 8) (hT : T.val = t.val % 8 * 512 + r.val) :
    ((cfg0.win 5).blk t).view.emb (ix3 (0 : Fin 1) r s) = ix3 b T s := by
  obtain ⟨-, -, -, -, -, -, -, -, -, -, -, -, -, -, e0, e1, e2⟩ := Cert.KBlocks.idx_facts t
  funext a; apply Fin.ext
  match a with
  | ⟨0, _⟩ => show win0_5.index t (0 : Fin 3) * 1 + 1 * 0 = b.val; omega
  | ⟨1, _⟩ => show win0_5.index t (1 : Fin 3) * 512 + 1 * r.val = T.val; omega
  | ⟨2, _⟩ => show win0_5.index t (2 : Fin 3) * 4096 + 1 * s.val = s.val; omega

/-- What point t writes back of the weights is block t of the specification's array. -/
theorem flushed5_eq (c : Dev nD) (t : Fin cfg0.N) :
    (dats m 0 c).flushed 5 t = ((cfg0.win 5).blk t).view.read (Elt Ideal) (specP m c) := by
  rw [Cert.KernelIdeal.Value.flushed5]
  have hN : t.val < 32 := lt_of_lt_of_eq t.isLt N_0
  refine funext fun (y : S1x512x4096.Idx) => ?_
  obtain ⟨u, r, s, rfl⟩ : ∃ (u : Fin 1) (r : Fin 512) (s : Fin 4096), y = ix3 u r s := ⟨y 0, y 1, y 2, eq_ix3 y⟩
  obtain rfl : u = 0 := Subsingleton.elim _ _
  show (outsAt0 m c t.val t.isLt).2.1 (ix3 (0 : Fin 1) r s)
    = specP m c (((cfg0.win 5).blk t).view.emb (ix3 (0 : Fin 1) r s))
  rw [emb5 t r s ⟨t.val / 8, by omega⟩ ⟨t.val % 8 * 512 + r.val, by omega⟩ rfl rfl]
  exact Cert.KCarried.weights_at m c t r s _ _ rfl rfl

/-- An index is in the weights' block of point t iff each coordinate is in the block's range. -/
theorem mem_blk5 (t : Fin cfg0.N) (i : S4x4096x4096.Idx) :
    i ∈ ((cfg0.win 5).blk t).view.set ↔ ∀ a : Fin 3, win0_5.index t a * S1x512x4096.size a ≤ (i a).val
      ∧ (i a).val < win0_5.index t a * S1x512x4096.size a + S1x512x4096.size a := by
  show i ∈ ((View.whole main_v1_1).slice (win0_5.rect t)).set ↔ _
  rw [View.set_slice_whole, Rect.mem_set_unit]
  exact Iff.rfl

/-- Every index of the weights lies in the block of point 8·b + T / 512. -/
theorem cover5 (i : S4x4096x4096.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 4096 := (i 2).isLt
  have hN : cfg0.N = 32 := N_0
  have hlt : (i 0).val * 8 + (i 1).val / 512 < cfg0.N := by rw [hN]; omega
  refine ⟨⟨(i 0).val * 8 + (i 1).val / 512, hlt⟩, flush0_5 _, ?_⟩
  obtain ⟨-, -, -, -, -, -, -, -, -, -, -, -, -, -, e0, e1, e2⟩ :=
    Cert.KBlocks.idx_facts ⟨(i 0).val * 8 + (i 1).val / 512, hlt⟩
  rw [mem_blk5]
  intro a
  match a with
  | ⟨0, _⟩ =>
    show win0_5.index ⟨(i 0).val * 8 + (i 1).val / 512, hlt⟩ (0 : Fin 3) * 1 ≤ (i 0).val
      ∧ (i 0).val < win0_5.index ⟨(i 0).val * 8 + (i 1).val / 512, hlt⟩ (0 : Fin 3) * 1 + 1
    rw [e0]; dsimp only; omega
  | ⟨1, _⟩ =>
    show win0_5.index ⟨(i 0).val * 8 + (i 1).val / 512, hlt⟩ (1 : Fin 3) * 512 ≤ (i 1).val
      ∧ (i 1).val < win0_5.index ⟨(i 0).val * 8 + (i 1).val / 512, hlt⟩ (1 : Fin 3) * 512 + 512
    rw [e1]; dsimp only; omega
  | ⟨2, _⟩ =>
    show win0_5.index ⟨(i 0).val * 8 + (i 1).val / 512, hlt⟩ (2 : Fin 3) * 4096 ≤ (i 2).val
      ∧ (i 2).val < win0_5.index ⟨(i 0).val * 8 + (i 1).val / 512, hlt⟩ (2 : Fin 3) * 4096 + 4096
    rw [e2]; omega

/-- After the run the second result array is the specification's weights. -/
theorem final5 (c : Dev nD) : (dats m 0 c).arrAt 5 cfg0.N = specP m c :=
  (dats m 0 c).arrAt_eq_of_cover 5 (specP m c) (fun t _ => flushed5_eq m c t) cover5

/-! ## The context (the first result) -/

/-- Entry (0, r, d) of the context's block of point t is the array's (t / 8, 512·(t % 8) + r, d). -/
theorem emb4 (t : Fin cfg0.N) (r : Fin 512) (d : Fin 256) (b : Fin 4) (T : Fin 4096)
    (hb : b.val = t.val / 8) (hT : T.val = t.val % 8 * 512 + r.val) :
    ((cfg0.win 4).blk t).view.emb (ix3 (0 : Fin 1) r d) = ix3 b T d := by
  obtain ⟨-, -, -, -, -, -, -, -, -, -, -, e0, e1, e2, -⟩ := Cert.KBlocks.idx_facts t
  funext a; apply Fin.ext
  match a with
  | ⟨0, _⟩ => show win0_4.index t (0 : Fin 3) * 1 + 1 * 0 = b.val; omega
  | ⟨1, _⟩ => show win0_4.index t (1 : Fin 3) * 512 + 1 * r.val = T.val; omega
  | ⟨2, _⟩ => show win0_4.index t (2 : Fin 3) * 256 + 1 * d.val = d.val; omega

/-- What point t writes back of the context is block t of the specification's array. -/
theorem flushed4_eq (c : Dev nD) (t : Fin cfg0.N) :
    (dats m 0 c).flushed 4 t = ((cfg0.win 4).blk t).view.read (Elt Ideal) (specC m c) := by
  rw [Cert.KernelIdeal.Value.flushed4]
  have hN : t.val < 32 := lt_of_lt_of_eq t.isLt N_0
  refine funext fun (y : S1x512x256.Idx) => ?_
  obtain ⟨u, r, d, rfl⟩ : ∃ (u : Fin 1) (r : Fin 512) (d : Fin 256), y = ix3 u r d := ⟨y 0, y 1, y 2, eq_ix3 y⟩
  obtain rfl : u = 0 := Subsingleton.elim _ _
  show (outsAt0 m c t.val t.isLt).1 (ix3 (0 : Fin 1) r d)
    = specC m c (((cfg0.win 4).blk t).view.emb (ix3 (0 : Fin 1) r d))
  rw [emb4 t r d ⟨t.val / 8, by omega⟩ ⟨t.val % 8 * 512 + r.val, by omega⟩ rfl rfl]
  exact Cert.KCarried.context_at m c t r d _ _ rfl rfl

/-- An index is in the context's block of point t iff each coordinate is in the block's range. -/
theorem mem_blk4 (t : Fin cfg0.N) (i : S4x4096x256.Idx) :
    i ∈ ((cfg0.win 4).blk t).view.set ↔ ∀ a : Fin 3, win0_4.index t a * S1x512x256.size a ≤ (i a).val
      ∧ (i a).val < win0_4.index t a * S1x512x256.size a + S1x512x256.size a := by
  show i ∈ ((View.whole main_v1_0).slice (win0_4.rect t)).set ↔ _
  rw [View.set_slice_whole, Rect.mem_set_unit]
  exact Iff.rfl

/-- Every index of the context lies in the block of point 8·b + T / 512. -/
theorem cover4 (i : S4x4096x256.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 256 := (i 2).isLt
  have hN : cfg0.N = 32 := N_0
  have hlt : (i 0).val * 8 + (i 1).val / 512 < cfg0.N := by rw [hN]; omega
  refine ⟨⟨(i 0).val * 8 + (i 1).val / 512, hlt⟩, flush0_4 _, ?_⟩
  obtain ⟨-, -, -, -, -, -, -, -, -, -, -, e0, e1, e2, -⟩ :=
    Cert.KBlocks.idx_facts ⟨(i 0).val * 8 + (i 1).val / 512, hlt⟩
  rw [mem_blk4]
  intro a
  match a with
  | ⟨0, _⟩ =>
    show win0_4.index ⟨(i 0).val * 8 + (i 1).val / 512, hlt⟩ (0 : Fin 3) * 1 ≤ (i 0).val
      ∧ (i 0).val < win0_4.index ⟨(i 0).val * 8 + (i 1).val / 512, hlt⟩ (0 : Fin 3) * 1 + 1
    rw [e0]; dsimp only; omega
  | ⟨1, _⟩ =>
    show win0_4.index ⟨(i 0).val * 8 + (i 1).val / 512, hlt⟩ (1 : Fin 3) * 512 ≤ (i 1).val
      ∧ (i 1).val < win0_4.index ⟨(i 0).val * 8 + (i 1).val / 512, hlt⟩ (1 : Fin 3) * 512 + 512
    rw [e1]; dsimp only; omega
  | ⟨2, _⟩ =>
    show win0_4.index ⟨(i 0).val * 8 + (i 1).val / 512, hlt⟩ (2 : Fin 3) * 256 ≤ (i 2).val
      ∧ (i 2).val < win0_4.index ⟨(i 0).val * 8 + (i 1).val / 512, hlt⟩ (2 : Fin 3) * 256 + 256
    rw [e2]; omega

/-- After the run the first result array is the specification's context. -/
theorem final4 (c : Dev nD) : (dats m 0 c).arrAt 4 cfg0.N = specC m c :=
  (dats m 0 c).arrAt_eq_of_cover 4 (specC m c) (fun t _ => flushed4_eq m c t) cover4

/-! ## The kernel's run -/

/-- The arrays the call finds are the arguments as launched. -/
theorem specP_launch (c : Dev nD) : specP m c = Cert.AttnSpec.Gprobs (m ((c : Thread nD τ).loc main_arg0)) (m ((c : Thread nD τ).loc main_arg1)) (m ((c : Thread nD τ).loc main_arg2)) (m ((c : Thread nD τ).loc main_arg3)) := by
  show Cert.AttnSpec.Gprobs (V m c main_arg0) (V m c main_arg1) (m ((c : Thread nD τ).loc main_arg2)) (V m c main_arg3) = _
  rw [V_main_arg0, V_main_arg1, V_main_arg3]

theorem specC_launch (c : Dev nD) : specC m c = Cert.AttnSpec.Gctx (m ((c : Thread nD τ).loc main_arg0)) (m ((c : Thread nD τ).loc main_arg1)) (m ((c : Thread nD τ).loc main_arg2)) (m ((c : Thread nD τ).loc main_arg3)) := by
  show Cert.AttnSpec.Gctx (V m c main_arg0) (V m c main_arg1) (m ((c : Thread nD τ).loc main_arg2)) (V m c main_arg3) = _
  rw [V_main_arg0, V_main_arg1, V_main_arg3]

/-- Every weakly fair execution of the idealized kernel ends with the two results at the specification's arrays of the
    arguments, the arguments unchanged. -/
theorem run : θ_run defs (onTc (τ := τ) (main (F := Ideal))) ⟨m, fun _ => 0, ρ⟩ fun r => ∀ c : Dev nD,
      r.2.mem ((c : Thread nD τ).loc main_v1_0) = Cert.AttnSpec.Gctx (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Cert.AttnSpec.Gprobs (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final4 m c).trans (specC_launch m c)),
      (h c).2.1.trans ((final5 m c).trans (specP_launch m c)), (h c).2.2⟩)
    (Cert.KernelIdeal.Value.run_blocks m ρ)

end Cert.KFinal

end
-- ==== Proof.RefIsSpec.lean ====
/-
  The reference's two results, stage by stage, are the specification's two arrays.
-/
import proofs.«168220_j82317343195415_2_alg».proof.Proof.Gen.ReferenceIdeal.Read
import proofs.«168220_j82317343195415_2_alg».proof.Proof.AttnSpec
import Idealize.ShloMosaic.Lib.ValueIdx
import Idealize.ShloMosaic.PureOps.Ideal.Laws

noncomputable section

namespace Cert.RefIsSpec

open Idealize.ShloMosaic Idealize.ShloMosaic.ValueIdx Cert.ReferenceIdeal Cert.ReferenceIdeal.Gen Cert.ReferenceIdeal.Read

section Stages

variable (x0 x1 : (⟨S4x4096x256, .f32⟩ : BufTy).Contents (Elt Ideal)) (x2 : (⟨S4x4096, .i32⟩ : BufTy).Contents (Elt Ideal))
  (x3 : (⟨S256x256, .f32⟩ : BufTy).Contents (Elt Ideal))

/-- The projected source states: the first product, at (b, s, k), is the energy. -/
theorem v0_at (b : Fin 4) (s : Fin 4096) (k : Fin 256) :
    val_main_v0 (F := Ideal) x1 x3 (ix3 b s k) = Cert.AttnSpec.energy x1 x3 b s k := by
  rw [val_main_v0_apply]
  unfold Cert.AttnSpec.energy
  refine Finset.sum_congr rfl fun d _ => ?_
  have el : lidx_main_v0 (ix3 b s k) d = ix3 b s d :=
    funext fun a => Fin.ext (by match a with | ⟨0, _⟩ => rfl | ⟨1, _⟩ => rfl | ⟨2, _⟩ => rfl)
  have er : ridx_main_v0 (ix3 b s k) d = ix2 k d :=
    funext fun a => Fin.ext (by match a with | ⟨0, _⟩ => rfl | ⟨1, _⟩ => rfl)
  rw [el, er]

/-- The second product, at (b, t, s), is the raw score. -/
theorem v1_at (b : Fin 4) (t s : Fin 4096) :
    val_main_v1 (F := Ideal) x0 x1 x3 (ix3 b t s) = Cert.AttnSpec.score x0 x1 x3 b t s := by
  rw [val_main_v1_apply]
  unfold Cert.AttnSpec.score
  refine Finset.sum_congr rfl fun k _ => ?_
  have el : lidx_main_v1 (ix3 b t s) k = ix3 b t k :=
    funext fun a => Fin.ext (by match a with | ⟨0, _⟩ => rfl | ⟨1, _⟩ => rfl | ⟨2, _⟩ => rfl)
  have er : ridx_main_v1 (ix3 b t s) k = ix3 b s k :=
    funext fun a => Fin.ext (by match a with | ⟨0, _⟩ => rfl | ⟨1, _⟩ => rfl | ⟨2, _⟩ => rfl)
  rw [el, er, v0_at]

/-- The mask, converted and broadcast over the target positions, at (b, t, s) is the mask word of (b, s) read as a number. -/
theorem v4_at (b : Fin 4) (t s : Fin 4096) :
    val_main_v4 (F := Ideal) x2 (ix3 b t s) = Cert.AttnSpec.maskVal (x2 (ix2 b s)) := by
  rw [val_main_v4_apply, val_main_v3_apply, val_main_v2_apply]
  unfold Cert.AttnSpec.maskVal
  refine congrArg (fun j => FloatOps.sitofp (F := Ideal) .f32 (x2 j)) ?_
  exact funext fun a => Fin.ext (by match a with | ⟨0, _⟩ => rfl | ⟨1, _⟩ => rfl)

/-- The penalty term P · (1 − m), broadcast over the target positions, at (b, t, s). -/
theorem v10_at (b : Fin 4) (t s : Fin 4096) :
    val_main_v10 (F := Ideal) x2 (ix3 b t s)
      = Ideal.ofBits .f32 0x51BA43B7#32 * (Ideal.ofBits .f32 0x3F800000#32 - Cert.AttnSpec.maskVal (x2 (ix2 b s))) := by
  rw [val_main_v10_apply, val_main_v9_apply, val_main_v8_apply, val_main_v7_apply, val_main_v6_apply, val_main_v3_apply,
    val_main_v2_apply, val_main_cst_0_apply, val_main_cst_apply]
  unfold Cert.AttnSpec.maskVal
  refine congrArg (fun j => Ideal.ofBits .f32 0x51BA43B7#32 * (Ideal.ofBits .f32 0x3F800000#32 - FloatOps.sitofp (F := Ideal) .f32 (x2 j))) ?_
  exact funext fun a => Fin.ext (by match a with | ⟨0, _⟩ => rfl | ⟨1, _⟩ => rfl)

/-- The masked, clamped score at (b, t, s). -/
theorem v13_at (b : Fin 4) (t s : Fin 4096) :
    val_main_v13 (F := Ideal) x0 x1 x2 x3 (ix3 b t s)
      = Cert.AttnSpec.maskedEntry (Cert.AttnSpec.score x0 x1 x3 b t s) (x2 (ix2 b s)) := by
  rw [val_main_v13_apply, val_main_v11_apply, val_main_v5_apply, val_main_v12_apply, val_main_cst_1_apply, v1_at, v4_at, v10_at]
  rfl

/-- The masked row of target position (b, t): the specification's entries over the source positions. -/
def mrow (b : Fin 4) (t : Fin 4096) : Fin 4096 → EReal :=
  fun s => Cert.AttnSpec.maskedEntry (Cert.AttnSpec.score x0 x1 x3 b t s) (x2 (ix2 b s))

/-- The reduced index (b, t) with source position k put back on the last axis is (b, t, k). -/
theorem lift_ix3 (h : S4x4096x4096.Reduces [2] S4x4096) (b : Fin 4) (t : Fin 4096) (k : Fin (S4x4096x4096.size 2)) :
    h.lift (ix2 b t) k = ix3 b t (⟨k.val, k.isLt⟩ : Fin 4096) := by
  funext c; apply Fin.ext
  match c with
  | ⟨0, _⟩ => rfl
  | ⟨1, _⟩ => rfl
  | ⟨2, _⟩ => rfl

/-- The row maximum from −∞'s word, at (b, t), is the specification's row maximum of the masked row. -/
theorem v14_at (b : Fin 4) (t : Fin 4096) :
    val_main_v14 (F := Ideal) x0 x1 x2 x3 (ix2 b t) = Cert.AttnSpec.rowMax (mrow x0 x1 x2 x3 b t) := by
  have hrow : mrow x0 x1 x2 x3 b t = fun s : Fin 4096 => val_main_v13 (F := Ideal) x0 x1 x2 x3 (ix3 b t s) :=
    funext fun s => (v13_at x0 x1 x2 x3 b t s).symm
  rw [hrow]
  unfold val_main_v14
  generalize val_main_v13 (F := Ideal) x0 x1 x2 x3 = y
  have h : S4x4096x4096.Reduces [2] S4x4096 := by decide
  have e := Host.reduce_eq_fold_single (α := Ideal .f32) (s := S4x4096x4096) (t := S4x4096) (u := S_) (a := (2 : Fin S4x4096x4096.rank))
    (FloatOps.maximumf (F := Ideal) (φ := .f32)) y (val_main_cst_2 (F := Ideal)) reducesTo_S4x4096x4096_S4x4096_d2 h h_S_ (ix2 b t)
  refine e.trans ?_
  have hf : (y ∘ h.lift (ix2 b t)) = fun k : Fin 4096 => y (ix3 b t k) :=
    funext fun k => congrArg y (lift_ix3 h b t k)
  unfold Cert.AttnSpec.rowMax
  exact congrArg (fun f => Finset.fold max (Ideal.ofBits .f32 0xFF800000#32) f (Finset.univ : Finset (Fin 4096))) hf

/-- The reference's second maximum with −∞'s word changes nothing: at (b, t) it is the row maximum. -/
theorem v16_at (b : Fin 4) (t : Fin 4096) :
    val_main_v16 (F := Ideal) x0 x1 x2 x3 (ix2 b t) = Cert.AttnSpec.rowMax (mrow x0 x1 x2 x3 b t) := by
  rw [val_main_v16_apply, val_main_v15_apply, val_main_cst_3_apply, v14_at]
  exact Cert.AttnSpec.max_word_rowMax _

/-- The row maximum broadcast back over the source positions. -/
theorem v18_at (b : Fin 4) (t s : Fin 4096) :
    val_main_v18 (F := Ideal) x0 x1 x2 x3 (ix3 b t s) = Cert.AttnSpec.rowMax (mrow x0 x1 x2 x3 b t) := by
  rw [val_main_v18_apply, val_main_v17_apply]
  refine Eq.trans (congrArg (val_main_v16 (F := Ideal) x0 x1 x2 x3) ?_) (v16_at x0 x1 x2 x3 b t)
  exact funext fun a => Fin.ext (by match a with | ⟨0, _⟩ => rfl | ⟨1, _⟩ => rfl)

/-- The exponential of the shifted masked score at (b, t, s). -/
theorem v20_at (b : Fin 4) (t s : Fin 4096) :
    val_main_v20 (F := Ideal) x0 x1 x2 x3 (ix3 b t s)
      = Ideal.exp (mrow x0 x1 x2 x3 b t s - Cert.AttnSpec.rowMax (mrow x0 x1 x2 x3 b t)) := by
  rw [val_main_v20_apply, val_main_v19_apply, v13_at, v18_at]
  rfl

/-- The row's sum of exponentials at (b, t): the host's sum starts from the zero word. -/
theorem v21_at (b : Fin 4) (t : Fin 4096) :
    val_main_v21 (F := Ideal) x0 x1 x2 x3 (ix2 b t)
      = ∑ s' : Fin 4096, Ideal.exp (mrow x0 x1 x2 x3 b t s' - Cert.AttnSpec.rowMax (mrow x0 x1 x2 x3 b t)) := by
  rw [val_main_v21_apply, val_main_cst_4_apply]
  refine Eq.trans (congrArg (· + _) Ideal.ofBits_zero_f32) ?_
  rw [zero_add]
  refine Finset.sum_congr rfl fun k _ => ?_
  refine Eq.trans (congrArg (val_main_v20 (F := Ideal) x0 x1 x2 x3) ?_) (v20_at x0 x1 x2 x3 b t k)
  exact funext fun a => Fin.ext (by match a with | ⟨0, _⟩ => rfl | ⟨1, _⟩ => rfl | ⟨2, _⟩ => rfl)

/-- The row's sum broadcast back over the source positions. -/
theorem v23_at (b : Fin 4) (t s : Fin 4096) :
    val_main_v23 (F := Ideal) x0 x1 x2 x3 (ix3 b t s)
      = ∑ s' : Fin 4096, Ideal.exp (mrow x0 x1 x2 x3 b t s' - Cert.AttnSpec.rowMax (mrow x0 x1 x2 x3 b t)) := by
  rw [val_main_v23_apply, val_main_v22_apply]
  refine Eq.trans (congrArg (val_main_v21 (F := Ideal) x0 x1 x2 x3) ?_) (v21_at x0 x1 x2 x3 b t)
  exact funext fun a => Fin.ext (by match a with | ⟨0, _⟩ => rfl | ⟨1, _⟩ => rfl)

/-- The attention weight at (b, t, s). -/
theorem v24_at (b : Fin 4) (t s : Fin 4096) :
    val_main_v24 (F := Ideal) x0 x1 x2 x3 (ix3 b t s) = Cert.AttnSpec.probs x0 x1 x2 x3 b t s := by
  rw [val_main_v24_apply, v20_at, v23_at]
  rfl

/-- The context vector at (b, t, d). -/
theorem v25_at (b : Fin 4) (t : Fin 4096) (d : Fin 256) :
    val_main_v25 (F := Ideal) x0 x1 x2 x3 (ix3 b t d) = Cert.AttnSpec.context x0 x1 x2 x3 b t d := by
  rw [val_main_v25_apply]
  unfold Cert.AttnSpec.context
  refine Finset.sum_congr rfl fun k _ => ?_
  have el : lidx_main_v25 (ix3 b t d) k = ix3 b t k :=
    funext fun a => Fin.ext (by match a with | ⟨0, _⟩ => rfl | ⟨1, _⟩ => rfl | ⟨2, _⟩ => rfl)
  have er : ridx_main_v25 (ix3 b t d) k = ix3 b k d :=
    funext fun a => Fin.ext (by match a with | ⟨0, _⟩ => rfl | ⟨1, _⟩ => rfl | ⟨2, _⟩ => rfl)
  rw [el, er, v24_at]

end Stages

/-- The reference's attention weights are the specification's. -/
theorem probs_eq (x0 x1 : (⟨S4x4096x256, .f32⟩ : BufTy).Contents (Elt Ideal)) (x2 : (⟨S4x4096, .i32⟩ : BufTy).Contents (Elt Ideal))
    (x3 : (⟨S256x256, .f32⟩ : BufTy).Contents (Elt Ideal)) :
    val_main_v24 (F := Ideal) x0 x1 x2 x3 = Cert.AttnSpec.Gprobs x0 x1 x2 x3 := by
  funext i
  obtain ⟨b, t, s, rfl⟩ : ∃ (b : Fin 4) (t : Fin 4096) (s : Fin 4096), i = ix3 b t s := ⟨i 0, i 1, i 2, eq_ix3 i⟩
  exact v24_at x0 x1 x2 x3 b t s

/-- The reference's context vectors are the specification's. -/
theorem ctx_eq (x0 x1 : (⟨S4x4096x256, .f32⟩ : BufTy).Contents (Elt Ideal)) (x2 : (⟨S4x4096, .i32⟩ : BufTy).Contents (Elt Ideal))
    (x3 : (⟨S256x256, .f32⟩ : BufTy).Contents (Elt Ideal)) :
    val_main_v25 (F := Ideal) x0 x1 x2 x3 = Cert.AttnSpec.Gctx x0 x1 x2 x3 := by
  funext i
  obtain ⟨b, t, d, rfl⟩ : ∃ (b : Fin 4) (t : Fin 4096) (d : Fin 256), i = ix3 b t d := ⟨i 0, i 1, i 2, eq_ix3 i⟩
  exact v25_at x0 x1 x2 x3 b t d

end Cert.RefIsSpec

end
-- ==== Proof.lean ====
/-
  The certificate of a fused attention kernel against its reference, over the extended reals.

  Both programs compute soft attention with a bilinear score.  The source states are projected, energy = h_s · Wᵀ; the
  score of a target row against a source position is the row's product with that position's energy; a score is masked
  by the source position's mask word m as score · m − P · (1 − m) and clamped from below; each row is turned into weights
  by a softmax (subtract the row's maximum, exponentiate, divide by the row's sum); the context is the weights times
  the source states.  The two results are the context and the weights.

  The reference does this on whole arrays.  The kernel walks a grid of 4 batches × 8 tiles of 512 target rows.  At the
  first tile of a batch it copies the batch's source states into one buffer and their projection, transposed, into a
  second, and every tile of the batch reads those two buffers; so the proof carries along the grid the statement of
  what the two buffers hold (module KCarried), reads each tile's two output blocks at an index (KPayloads, KBlocks),
  and assembles the blocks into the arrays (KFinal).  The reference is read stage by stage (RefIsSpec).  Both sides
  arrive at the same functions of the four arguments (AttnSpec), entry by entry:
    • changes of float format are identities on the extended reals;
    • a matrix product is the sum over the contracted coordinate on both sides, whatever the tiling; the kernel's
      projection multiplies W · h_s where the reference multiplies h_s · W, and products commute;
    • a row's maximum is the fold of max from −∞ on both sides; the reference takes the maximum with −∞ once more,
      which changes nothing;
    • the float words (1, the mask penalty, the floor, −∞, 0) are the same words on both sides and are never evaluated.
  No step needs the inputs to be finite.  The idealization rewrote nothing, so that conjunct is trivial; the three frames
  are the generated ones (the reference's is its run with the results dropped).
-/
import proofs.«168220_j82317343195415_2_alg».proof.Defs
import proofs.«168220_j82317343195415_2_alg».proof.Proof.Gen.Kernel
import proofs.«168220_j82317343195415_2_alg».proof.Proof.Gen.Kernel.Frame
import proofs.«168220_j82317343195415_2_alg».proof.Proof.Gen.KernelIdeal
import proofs.«168220_j82317343195415_2_alg».proof.Proof.Gen.KernelIdeal.Frame
import proofs.«168220_j82317343195415_2_alg».proof.Proof.Gen.KernelIdeal.Value
import proofs.«168220_j82317343195415_2_alg».proof.Proof.Gen.ReferenceIdeal
import proofs.«168220_j82317343195415_2_alg».proof.Proof.Gen.ReferenceIdeal.Run
import proofs.«168220_j82317343195415_2_alg».proof.Proof.Gen.ReferenceIdeal.Read
import proofs.«168220_j82317343195415_2_alg».proof.Proof.Gen.Pre_finite_inputs
import proofs.«168220_j82317343195415_2_alg».proof.Proof.AttnSpec
import proofs.«168220_j82317343195415_2_alg».proof.Proof.KFinal
import proofs.«168220_j82317343195415_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the specification's context and weights of
    those arguments. -/
theorem algebraic : Cert.algebraic_KernelIdeal_ReferenceIdeal := by
  intro m ρ m' ρ' _ hagree
  refine ⟨fun c => Cert.AttnSpec.Gctx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.AttnSpec.Gprobs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KFinal.run m ρ, ?_⟩
  refine (θ_run Cert.ReferenceIdeal.defs _ _).mono (fun _ h c => ⟨?_, ?_, (h c).2.2⟩)
    (Cert.ReferenceIdeal.Value.run (F := Ideal) m' ρ')
  · refine ((h c).1.trans ((Cert.ReferenceIdeal.Read.val_main_v25_eq m' c).trans (Cert.RefIsSpec.ctx_eq _ _ _ _))).trans ?_
    rw [(hagree c).1, (hagree c).2.1, (hagree c).2.2.1, (hagree c).2.2.2]
  · refine ((h c).2.1.trans ((Cert.ReferenceIdeal.Read.val_main_v24_eq m' c).trans (Cert.RefIsSpec.probs_eq _ _ _ _))).trans ?_
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
